-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x2 : Shape := ⟨2, ![800000, 2]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S800000x2 32) (main_arg2 : FVec F S64x64 .f32) (main_arg3 : FVec F S64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S800000x2 : Shape := ⟨2, ![800000, 2]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S50000 : Shape := ⟨1, ![50000]⟩
abbrev S50000x1 : Shape := ⟨2, ![50000, 1]⟩
abbrev S5000x1 : Shape := ⟨2, ![5000, 1]⟩

abbrev nBuf : Space → Nat
  | .hbm => 36
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S800000x2, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S50000x64, .f32⟩
  | .hbm, ⟨7, _⟩ => ⟨S800000x1, .i32⟩
  | .hbm, ⟨8, _⟩ => ⟨S800000, .i32⟩
  | .hbm, ⟨9, _⟩ => ⟨S800000x1, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S1x64, .f32⟩
  | .hbm, ⟨35, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  dot_S5000x64_S64x64_S5000x64_1_1_0_0_n_n_wf : DotDims.WF S5000x64 S64x64 S5000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x2 : Shape := ⟨2, ![800000, 2]⟩
abbrev S64x64 : Shape := ⟨2, ![64, 64]⟩
abbrev S64 : Shape := ⟨1, ![64]⟩
abbrev S1x64 : Shape := ⟨2, ![1, 64]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S50000 : Shape := ⟨1, ![50000]⟩
abbrev S50000x1 : Shape := ⟨2, ![50000, 1]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x2, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S50000x64, .f32⟩
  | .hbm, ⟨7, _⟩ => ⟨S1x64, .f32⟩
  | .hbm, ⟨8, _⟩ => ⟨S50000x64, .f32⟩
  | .hbm, ⟨9, _⟩ => ⟨S50000x64, .f32⟩
  | .hbm, ⟨10, _⟩ => ⟨S800000x1, .i32⟩
  | .hbm, ⟨11, _⟩ => ⟨S800000, .i32⟩
  | .hbm, ⟨12, _⟩ => ⟨S800000x1, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_cst : Ref sig .tc := ⟨.hbm, 43, rfl⟩
abbrev main_call0_v0 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelRun.lean ====
/-
  The idealized kernel's run with its result array NAMED.

  The program is two grid regions among two stretches of host operations. Every weakly fair execution terminates
  without a fault, and at the end every buffer that outlives the regions holds what the fold through the program
  leaves in it: the launch contents pushed through the first stretch, the first region's write-backs, the second
  stretch, and the second region's write-backs. Read at the five arguments that fold is the launch memory; read at the
  program's result it is the second region's output array after its last grid point. This module states that run with
  the result's buffer among the buffers read; what the array holds, index by index, is the business of the modules
  that follow.
-/
import proofs.«100327_j50818053046787_2_alg».proof.Proof.Gen.KernelIdeal.Frame

set_option maxRecDepth 16384

noncomputable section

namespace Cert.KernelIdeal.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result's buffer at the last
    boundary's contents and the five arguments as launched. -/
theorem run_out : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Out

end
-- ==== Proof.LibTransDot.lean ====
/-
  A matrix product with the right operand given by rows, into a zero accumulator, read at coordinates.

  For a dot of a `[M, K]` matrix with a `[N, K]` matrix whose dimension numbers contract the second axis of both operands
  and keep the first axes in order (the product of the left matrix with the transpose of the right one), the product
  accumulated into the zero splat is, at `(p, c)`,

      ∑ k : Fin K, l (p, k) · r (c, k)

  on the extended reals. The dimension record enters only through four facts about its operand indices — the left index at
  output index `i` and contraction position `q` is `(i 0, q)`, the right one `(i 1, q)` — which a concrete record proves by
  unfolding; with them the sum over the record's one-axis contraction shape is re-indexed over `Fin K`.
-/
import Idealize.ShloMosaic.PureOps.Ideal.Laws
import Idealize.ShloMosaic.Lib.ValueIdx

namespace Cert.Lib.TransDot

open Idealize.ShloMosaic Idealize.ShloMosaic.ValueIdx

/-- The product of an `[M, K]` matrix with the transpose of an `[N, K]` matrix into the zero splat at `(p, c)`: the sum
    over `k` of `l (p, k) · r (c, k)`. -/
theorem matmul_zero_ix2_nt {M K N : ℕ} {φ₁ φ₂ : FTy}
    (D : DotDims ⟨2, ![M, K]⟩ ⟨2, ![N, K]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (i (1 : Fin 2)).val)
    (hr1 : ∀ (i : (⟨2, ![M, N]⟩ : Shape).Idx) (q : D.contr.Idx), (D.rhsIdx i q (1 : Fin 2)).val = (q ⟨0, by omega⟩).val)
    (prec : Option ContractPrecision) (l : FVec Ideal ⟨2, ![M, K]⟩ φ₁) (r : FVec Ideal ⟨2, ![N, K]⟩ φ₂) (p : Fin M) (c : Fin N) :
    FloatOps.matmul D prec l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.TransDot
-- ==== Proof.Linear.lean ====
/-
  The first region: the linear layer, as one function of the arrays it reads.

  Each of the ten grid points loads a block of 5000 rows of the node features, the whole 64 × 64 weight matrix and the
  bias row, and stores, for row p of the block and output feature c,

      (∑ k, features (p, k) · weights (c, k)) + bias (0, c)

  — the product of the features with the TRANSPOSE of the weights (both operands contract their second axis), into a
  zero accumulator; the roundings on the way into the product are the identity on the extended reals. The blocks of
  5000 rows tile the 50000 rows, so after the last point the region's output array is that expression at every index.
-/
import proofs.«100327_j50818053046787_2_alg».proof.Proof.Gen.KernelIdeal.Frame
import proofs.«100327_j50818053046787_2_alg».proof.Proof.LibTransDot
import Idealize.ShloMosaic.Lib.ValueLayout
import Idealize.ShloMosaic.Lib.Pipeline.Value
import Idealize.ShloMosaic.Lib.ValueIdx

set_option maxRecDepth 16384

noncomputable section

namespace Cert.KernelIdeal.Linear

open Idealize.ShloMosaic Idealize.ShloMosaic.TcCoe Idealize.ShloMosaic.ValueIdx Idealize.SL.Sem
open Idealize.ShloMosaic.Pipeline (Dat)
open Cert.KernelIdeal Cert.KernelIdeal.Gen

/-! ## The product's operand indices -/

theorem lhs0 (i : S5000x64.Idx) (q : dot_S5000x64_S64x64_S5000x64_1_1_0_0_n_n.contr.Idx) :
    (dot_S5000x64_S64x64_S5000x64_1_1_0_0_n_n.lhsIdx i q (0 : Fin 2)).val = (i (0 : Fin 2)).val := by
  unfold DotDims.lhsIdx
  rw [dif_neg (show ¬(0 : Fin S5000x64.rank) ∈ dot_S5000x64_S64x64_S5000x64_1_1_0_0_n_n.lhsBatch by decide),
    dif_pos (show (0 : Fin S5000x64.rank) ∈ dot_S5000x64_S64x64_S5000x64_1_1_0_0_n_n.lhsNonContracting by decide)]
  rfl
theorem lhs1 (i : S5000x64.Idx) (q : dot_S5000x64_S64x64_S5000x64_1_1_0_0_n_n.contr.Idx) :
    (dot_S5000x64_S64x64_S5000x64_1_1_0_0_n_n.lhsIdx i q (1 : Fin 2)).val = (q ⟨0, by decide⟩).val :=
  dot_S5000x64_S64x64_S5000x64_1_1_0_0_n_n.lhsIdx_val_of_single rfl i q
theorem rhs0 (i : S5000x64.Idx) (q : dot_S5000x64_S64x64_S5000x64_1_1_0_0_n_n.contr.Idx) :
    (dot_S5000x64_S64x64_S5000x64_1_1_0_0_n_n.rhsIdx i q (0 : Fin 2)).val = (i (1 : Fin 2)).val := by
  unfold DotDims.rhsIdx
  rw [dif_neg (show ¬(0 : Fin S64x64.rank) ∈ dot_S5000x64_S64x64_S5000x64_1_1_0_0_n_n.rhsBatch by decide),
    dif_pos (show (0 : Fin S64x64.rank) ∈ dot_S5000x64_S64x64_S5000x64_1_1_0_0_n_n.rhsNonContracting by decide)]
  rfl
theorem rhs1 (i : S5000x64.Idx) (q : dot_S5000x64_S64x64_S5000x64_1_1_0_0_n_n.contr.Idx) :
    (dot_S5000x64_S64x64_S5000x64_1_1_0_0_n_n.rhsIdx i q (1 : Fin 2)).val = (q ⟨0, by decide⟩).val :=
  dot_S5000x64_S64x64_S5000x64_1_1_0_0_n_n.rhsIdx_val_of_single rfl i q

/-! ## What one point stores, at an index -/

/-- Entry (p, c) of the stored block: row p of the loaded features against row c of the weights, plus the bias at c. -/
theorem stored_apply (v0 : Vec Ideal S5000x64 .f32) (v2 : Vec Ideal S64x64 .f32) (v5 : Vec Ideal S1x64 .f32)
    (p : Fin 5000) (c : Fin 64) :
    k0_pay1 (F := Ideal) v0 v2 v5 (ix2 p c) = (∑ k : Fin 64, v0 (ix2 p k) * v2 (ix2 c k)) + v5 (ix2 (0 : Fin 1) c) := by
  unfold k0_pay1
  rw [shapeCast_self]
  refine (addf_apply _ _ _).trans ?_
  rw [broadcastTo_1b_ab_apply]
  refine congrArg (· + v5 (ix2 (0 : Fin 1) c)) ?_
  exact Cert.Lib.TransDot.matmul_zero_ix2_nt (M := 5000) (K := 64) (N := 64) dot_S5000x64_S64x64_S5000x64_1_1_0_0_n_n rfl rfl
    lhs0 lhs1 rhs0 rhs1 none (truncf .bf16 v0 bitsLt_bf16_f32) (truncf .bf16 v2 bitsLt_bf16_f32) p c

/-! ## The layer as a function of the whole arrays -/

/-- Entry (p, c) of the linear layer: row p of the features against row c of the weights, plus the bias row at c. -/
def entry (nf : S50000x64.Idx → Ideal .f32) (W : S64x64.Idx → Ideal .f32) (b2 : S1x64.Idx → Ideal .f32)
    (p : Fin 50000) (c : Fin 64) : Ideal .f32 :=
  (∑ k : Fin 64, nf (ix2 p k) * W (ix2 c k)) + b2 (ix2 (0 : Fin 1) c)

/-- The linear layer's output array. -/
def layer (nf : S50000x64.Idx → Ideal .f32) (W : S64x64.Idx → Ideal .f32) (b2 : S1x64.Idx → Ideal .f32) :
    S50000x64.Idx → Ideal .f32 := fun i => entry nf W b2 (i 0) (i 1)

section Region
variable (V : (c : Dev nD) → (b : Ref sig .tc) → Buf (Elt Ideal) ((c : Thread nD τ).loc b))

theorem off_zero : (![0, 0] : Fin 2 → Nat) = fun _ => 0 := funext fun a => by fin_cases a <;> rfl

/-- The block indices over the grid: the features' block moves with the output's along the rows; the weights and the
    bias row are one block each; nothing moves along the columns. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every block of 5000 rows is some point's. -/
theorem block_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of the layer of the arrays the region finds. -/
theorem flushed_eq (c : Dev nD) (t : Fin cfg0.N) :
    (dat0 V c).flushed 3 t
      = ((cfg0.win 3).blk t).view.read (Elt Ideal) (layer (V c main_arg0) (V c main_arg2) (V c main_v0)) := by
  show (cfg0.win 3).cut (grid0.coords t) ((dat0 V c).after 3 t) = _
  rw [after0_3]
  unfold out0_3
  rw [View.canon_unit_zero off_zero]
  simp only [View.ld_unit_zero (S := S5000x64) off_zero, View.ld_unit_zero (S := S64x64) off_zero,
    View.ld_unit_zero (S := S1x64) off_zero]
  obtain ⟨e0, e1, e2, e3, e4, e5, e6, e7⟩ := block_indices t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (ix2 p q)
    = layer (V c main_arg0) (V c main_arg2) (V c main_v0) (((cfg0.win 3).blk t).view.emb (ix2 p q))
  refine (stored_apply (iblk0 V c 0 t) (iblk0 V c 1 t) (iblk0 V c 2 t) p q).trans ?_
  have h0 : ∀ k : Fin 64, iblk0 V c 0 t (ix2 p k)
      = V c main_arg0 (ix2 ((((cfg0.win 3).blk t).view.emb (ix2 p q)) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have h1 : ∀ k : Fin 64, iblk0 V c 1 t (ix2 q k)
      = V c main_arg2 (ix2 ((((cfg0.win 3).blk t).view.emb (ix2 p q)) 1) k) := fun k => by
    show V c main_arg2 (((cfg0.win 1).blk t).view.emb (ix2 q k)) = _
    refine congrArg (V c main_arg2) (funext fun a => Fin.ext ?_)
    match a with
    | ⟨0, _⟩ => show win0_1.index t (0 : Fin 2) * 64 + 1 * q.val = win0_3.index t (1 : Fin 2) * 64 + 1 * q.val; omega
    | ⟨1, _⟩ => show win0_1.index t (1 : Fin 2) * 64 + 1 * k.val = k.val; omega
  have h2 : iblk0 V c 2 t (ix2 (0 : Fin 1) q)
      = V c main_v0 (ix2 (0 : Fin 1) ((((cfg0.win 3).blk t).view.emb (ix2 p q)) 1)) := by
    show V c main_v0 (((cfg0.win 2).blk t).view.emb (ix2 (0 : Fin 1) q)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [h2, Finset.sum_congr rfl fun k _ => by rw [h0 k, h1 k]]
  rfl

/-- An index of the output array is in point t's block iff each coordinate is in the block's range on its axis. -/
theorem mem_block (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v1).slice (win0_3.rect t)).set ↔ _
  rw [View.set_slice_whole, Rect.mem_set_unit]
  exact Iff.rfl

/-- Row r of the array lies in the block of the point whose row-block index is r / 5000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The region's output array after the last point: the linear layer of the arrays the region finds. -/
theorem array_eq (c : Dev nD) :
    (dat0 V c).arrAt 3 cfg0.N = layer (V c main_arg0) (V c main_arg2) (V c main_v0) :=
  (dat0 V c).arrAt_eq_of_cover 3 _ (fun t _ => flushed_eq V c t) covered

end Region

end Cert.KernelIdeal.Linear

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Epilogue.lean ====
/-
  The second region: the residual, the division by the degree, the second bias and the rectifier.

  Each of the ten grid points loads a block of 5000 rows of the linear layer's output x and of the aggregated
  neighbour features, the matching 5000 entries of the degree column, and the bias row, and stores, for row p of the
  block and feature c,

      max ((x (p, c) + aggregated (p, c) / degree (p, 0)) + bias (0, c)) 0 .

  The division is the extended reals' own; the degree column is read along the row, the bias row along the column. The
  blocks of 5000 rows tile the 50000 rows, so after the last point the region's output array is that expression of the
  four arrays at every index.
-/
import proofs.«100327_j50818053046787_2_alg».proof.Proof.Gen.KernelIdeal.Frame
import proofs.«100327_j50818053046787_2_alg».proof.Proof.LibColumns
import Idealize.ShloMosaic.Lib.ValueLayout
import Idealize.ShloMosaic.Lib.Pipeline.Value
import Idealize.ShloMosaic.Lib.ValueIdx

set_option maxRecDepth 16384

noncomputable section

namespace Cert.KernelIdeal.Epilogue

open Idealize.ShloMosaic Idealize.ShloMosaic.TcCoe Idealize.ShloMosaic.ValueIdx Idealize.SL.Sem
open Idealize.ShloMosaic.Pipeline (Dat)
open Cert.KernelIdeal Cert.KernelIdeal.Gen

/-! ## What one point stores, at an index -/

/-- Entry (p, c) of the stored block. -/
theorem stored_apply (v0 v2 : Vec Ideal S5000x64 .f32) (v4 : Vec Ideal S5000x1 .f32) (v9 : Vec Ideal S1x64 .f32)
    (p : Fin 5000) (c : Fin 64) :
    k1_pay1 (F := Ideal) v0 v2 v4 v9 (ix2 p c)
      = max ((v0 (ix2 p c) + Ideal.div (v2 (ix2 p c)) (v4 (ix2 p (0 : Fin 1)))) + v9 (ix2 (0 : Fin 1) c))
          (Ideal.ofBits .f32 0x00000000#32) := by
  unfold k1_pay1
  rw [shapeCast_self, shapeCast_self, shapeCast_self, shapeCast_self]
  refine (maximumf_apply _ _ _).trans ?_
  refine congrArg (max · (Ideal.ofBits .f32 0x00000000#32)) ?_
  refine (addf_apply _ _ _).trans ?_
  rw [broadcastTo_1b_ab_apply]
  refine congrArg (· + v9 (ix2 (0 : Fin 1) c)) ?_
  refine (addf_apply _ _ _).trans ?_
  refine congrArg (v0 (ix2 p c) + ·) ?_
  refine (divf_apply _ _ _).trans ?_
  rw [Cert.Lib.Columns.broadcastTo_a1_ab_apply]

/-! ## The epilogue as a function of the whole arrays -/

/-- Entry (p, c) of the layer's result from the linear output, the aggregate, the degree column and the bias row. -/
def entry (x agg : S50000x64.Idx → Ideal .f32) (deg : S50000x1.Idx → Ideal .f32) (b2 : S1x64.Idx → Ideal .f32)
    (p : Fin 50000) (c : Fin 64) : Ideal .f32 :=
  max ((x (ix2 p c) + Ideal.div (agg (ix2 p c)) (deg (ix2 p (0 : Fin 1)))) + b2 (ix2 (0 : Fin 1) c))
    (Ideal.ofBits .f32 0x00000000#32)

/-- The layer's result array. -/
def result (x agg : S50000x64.Idx → Ideal .f32) (deg : S50000x1.Idx → Ideal .f32) (b2 : S1x64.Idx → Ideal .f32) :
    S50000x64.Idx → Ideal .f32 := fun i => entry x agg deg b2 (i 0) (i 1)

section Region
variable (V : (c : Dev nD) → (b : Ref sig .tc) → Buf (Elt Ideal) ((c : Thread nD τ).loc b))

theorem off_zero : (![0, 0] : Fin 2 → Nat) = fun _ => 0 := funext fun a => by fin_cases a <;> rfl

/-- The block indices over the grid: the three row-blocked inputs move with the output along the rows; the bias row is
    one block; nothing moves along the columns. -/
theorem block_indices : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every block of 5000 rows is some point's. -/
theorem block_onto : ∀ q0 : Fin 10, ∃ t : Fin cfg1.N, win1_4.index t = ![q0.val, 0] :=
  (by decide +kernel : ∀ q0 : Fin 10, ∃ t : Fin grid1.N, win1_4.index t = ![q0.val, 0])

/-- What point t writes back is block t of the result of the arrays the region finds. -/
theorem flushed_eq (c : Dev nD) (t : Fin cfg1.N) :
    (dat1 V c).flushed 4 t
      = ((cfg1.win 4).blk t).view.read (Elt Ideal)
          (result (V c main_v1) (V c main_v15) (V c main_v22) (V c main_v23)) := by
  show (cfg1.win 4).cut (grid1.coords t) ((dat1 V c).after 4 t) = _
  rw [after1_4]
  unfold out1_4
  rw [View.canon_unit_zero off_zero]
  simp only [View.ld_unit_zero (S := S5000x64) off_zero, View.ld_unit_zero (S := S5000x1) off_zero,
    View.ld_unit_zero (S := S1x64) off_zero]
  obtain ⟨e0, e1, e2, e3, e4, e5, e6, e7, e8, e9⟩ := block_indices t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (ix2 p q)
    = result (V c main_v1) (V c main_v15) (V c main_v22) (V c main_v23) (((cfg1.win 4).blk t).view.emb (ix2 p q))
  refine (stored_apply (iblk1 V c 0 t) (iblk1 V c 1 t) (iblk1 V c 2 t) (iblk1 V c 3 t) p q).trans ?_
  have h0 : iblk1 V c 0 t (ix2 p q)
      = V c main_v1 (ix2 ((((cfg1.win 4).blk t).view.emb (ix2 p q)) 0) ((((cfg1.win 4).blk t).view.emb (ix2 p q)) 1)) := by
    show V c main_v1 (((cfg1.win 0).blk t).view.emb (ix2 p q)) = _
    refine congrArg (V c main_v1) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : iblk1 V c 1 t (ix2 p q)
      = V c main_v15 (ix2 ((((cfg1.win 4).blk t).view.emb (ix2 p q)) 0) ((((cfg1.win 4).blk t).view.emb (ix2 p q)) 1)) := by
    show V c main_v15 (((cfg1.win 1).blk t).view.emb (ix2 p q)) = _
    refine congrArg (V c main_v15) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : iblk1 V c 2 t (ix2 p (0 : Fin 1))
      = V c main_v22 (ix2 ((((cfg1.win 4).blk t).view.emb (ix2 p q)) 0) (0 : Fin 1)) := by
    show V c main_v22 (((cfg1.win 2).blk t).view.emb (ix2 p (0 : Fin 1))) = _
    refine congrArg (V c main_v22) (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : iblk1 V c 3 t (ix2 (0 : Fin 1) q)
      = V c main_v23 (ix2 (0 : Fin 1) ((((cfg1.win 4).blk t).view.emb (ix2 p q)) 1)) := by
    show V c main_v23 (((cfg1.win 3).blk t).view.emb (ix2 (0 : Fin 1) q)) = _
    refine congrArg (V c main_v23) (funext fun a => Fin.ext ?_)
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3]
  rfl

/-- An index of the output array is in point t's block iff each coordinate is in the block's range on its axis. -/
theorem mem_block (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v24).slice (win1_4.rect t)).set ↔ _
  rw [View.set_slice_whole, Rect.mem_set_unit]
  exact Iff.rfl

/-- Row r of the array lies in the block of the point whose row-block index is r / 5000. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := block_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The region's output array after the last point: the epilogue of the arrays the region finds. -/
theorem array_eq (c : Dev nD) :
    (dat1 V c).arrAt 4 cfg1.N = result (V c main_v1) (V c main_v15) (V c main_v22) (V c main_v23) :=
  (dat1 V c).arrAt_eq_of_cover 4 _ (fun t _ => flushed_eq V c t) covered

end Region

end Cert.KernelIdeal.Epilogue

end
-- ==== Proof.HostStretches.lean ====
/-
  The host operations around the two regions, read.

  Before the first region the host recasts the first bias vector as a row. Between the regions it takes the two columns
  of the edge list — sources and targets —, wraps negative source indices by the number of nodes, gathers the linear
  layer's rows at the sources, adds each gathered row into its target's row of a zero array (the aggregate), adds a one
  per edge into its target's entry of a zero vector and bounds that count below by one (the degree), and recasts the
  degree as a column and the second bias vector as a row. Each buffer the second region reads is named here as that
  chain of operations applied to what the first region left and to the launch contents of the arguments; the chain
  itself is never opened.
-/
import proofs.«100327_j50818053046787_2_alg».proof.Proof.Gen.KernelIdeal.Frame

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-! ## The chain between the regions, as functions -/

/-- The source column of the edge list, negative indices wrapped by the number of nodes, as gather start indices. -/
def sources (e : (⟨S800000x2, .i32⟩ : BufTy).Contents (Elt F)) : (⟨S800000x1, .i32⟩ : BufTy).Contents (Elt F) :=
  broadcastInDim S800000x1 ![0] bcast_S800000_S800000x1_0
    (select (cmpi .slt (shapeCast _ (extractStridedSlice S800000x1 ![0, 0] e slices_S800000x2_S800000x1_0_0) shapeCasts_S800000x1_S800000)
        (broadcastInDim S800000 ![] bcast_S_S800000 (constantI S_ 32 0#32)))
      (addi (shapeCast _ (extractStridedSlice S800000x1 ![0, 0] e slices_S800000x2_S800000x1_0_0) shapeCasts_S800000x1_S800000)
        (broadcastInDim S800000 ![] bcast_S_S800000 (constantI S_ 32 50000#32)))
      (shapeCast _ (extractStridedSlice S800000x1 ![0, 0] e slices_S800000x2_S800000x1_0_0) shapeCasts_S800000x1_S800000))

/-- The target column of the edge list, as scatter indices. -/
def targets (e : (⟨S800000x2, .i32⟩ : BufTy).Contents (Elt F)) : (⟨S800000x1, .i32⟩ : BufTy).Contents (Elt F) :=
  broadcastInDim S800000x1 ![0] bcast_S800000_S800000x1_0
    (shapeCast _ (extractStridedSlice S800000x1 ![0, 1] e slices_S800000x2_S800000x1_0_1) shapeCasts_S800000x1_S800000)

/-- The aggregate: the rows of x at the sources, added into the targets' rows of a zero array. -/
def aggregate (x : (⟨S50000x64, .f32⟩ : BufTy).Contents (Elt F)) (e : (⟨S800000x2, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (targets e)
    (Host.gather gather_S50000x64_S800000x1_S800000x64_1_0_n_n_0_1_164 x (sources e))

/-- The degree: one per edge added into its target's entry of a zero vector, bounded below by one. -/
def degree (e : (⟨S800000x2, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (targets e)
      (broadcastInDim S800000 ![] bcast_S_S800000 (constant S_ .f32 0x3F800000#32)))
    (broadcastInDim S50000 ![] bcast_S_S50000 (constant S_ .f32 0x3F800000#32))

variable (m : (ℓ : Loc nD τ sig) → Buf (Elt F) ℓ) (ρ : Dev nD → PrngReg)

/-! ## What the first region finds -/

theorem entry0_arg0 (c : Dev nD) : V1 m ρ c main_arg0 = m ((c : Thread nD τ).loc main_arg0) := by
  show StableHlo.after hostOps0 (W0 m ρ c) (Proc.devRef .tc main_arg0) = _
  after_results

theorem entry0_arg2 (c : Dev nD) : V1 m ρ c main_arg2 = m ((c : Thread nD τ).loc main_arg2) := by
  show StableHlo.after hostOps0 (W0 m ρ c) (Proc.devRef .tc main_arg2) = _
  after_results

theorem entry0_v0 (c : Dev nD) :
    V1 m ρ c main_v0 = shapeCast S1x64 (m ((c : Thread nD τ).loc main_arg3)) shapeCasts_S64_S1x64 := by
  show StableHlo.after hostOps0 (W0 m ρ c) (Proc.devRef .tc main_v0) = _
  after_results
  rfl

/-! ## What the first region leaves -/

theorem exit0_v1 (c : Dev nD) : W2 m ρ c (Proc.devRef .tc main_v1) = (dat0 (V1 m ρ) c).arrAt 3 cfg0.N :=
  W2_arr m ρ c 3

theorem exit0_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

theorem exit0_arg4 (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

/-! ## What the second region finds -/

theorem entry1_v1 (c : Dev nD) : V3 m ρ c main_v1 = W2 m ρ c (Proc.devRef .tc main_v1) := by
  show StableHlo.after hostOps1 (W2 m ρ c) (Proc.devRef .tc main_v1) = _
  generalize W2 m ρ c = Y
  after_results

theorem entry1_v15 (c : Dev nD) :
    V3 m ρ c main_v15 = aggregate (W2 m ρ c (Proc.devRef .tc main_v1)) (W2 m ρ c (Proc.devRef .tc main_arg1)) := by
  show StableHlo.after hostOps1 (W2 m ρ c) (Proc.devRef .tc main_v15) = _
  generalize W2 m ρ c = Y
  after_results
  rfl

theorem entry1_v22 (c : Dev nD) :
    V3 m ρ c main_v22 = shapeCast S50000x1 (degree (W2 m ρ c (Proc.devRef .tc main_arg1))) shapeCasts_S50000_S50000x1 := by
  show StableHlo.after hostOps1 (W2 m ρ c) (Proc.devRef .tc main_v22) = _
  generalize W2 m ρ c = Y
  after_results
  rfl

theorem entry1_v23 (c : Dev nD) :
    V3 m ρ c main_v23 = shapeCast S1x64 (W2 m ρ c (Proc.devRef .tc main_arg4)) shapeCasts_S64_S1x64 := by
  show StableHlo.after hostOps1 (W2 m ρ c) (Proc.devRef .tc main_v23) = _
  generalize W2 m ρ c = Y
  after_results
  rfl

end Cert.KernelIdeal.Host

end
-- ==== Proof.Program.lean ====
/-
  The graph-convolution layer as ONE function of its five argument arrays, on the extended reals.

  x is the linear layer of the node features, the weights and the first bias (as a row); the result is the epilogue
  of x, the aggregate of x over the edge list, the degree (as a column) and the second bias (as a row):

      result (p, c) = max ((x (p, c) + aggregate (p, c) / degree (p)) + bias (c)) 0 ,
      x (p, c)      = (∑ k, features (p, k) · weights (c, k)) + bias₁ (c) .

  Both programs are shown to end with this function of their arguments.
-/
import proofs.«100327_j50818053046787_2_alg».proof.Proof.Linear
import proofs.«100327_j50818053046787_2_alg».proof.Proof.Epilogue
import proofs.«100327_j50818053046787_2_alg».proof.Proof.HostStretches

noncomputable section

namespace Cert.KernelIdeal.Whole

open Idealize.ShloMosaic
open Cert.KernelIdeal Cert.KernelIdeal.Gen

/-- The layer: x is the linear layer of the features, the weights and the first bias as a row; the result is the
    epilogue of x, the aggregate of x over the edges, the degree as a column and the second bias as a row. -/
def program (nf : (⟨S50000x64, .f32⟩ : BufTy).Contents (Elt Ideal)) (e : (⟨S800000x2, .i32⟩ : BufTy).Contents (Elt Ideal))
    (W : (⟨S64x64, .f32⟩ : BufTy).Contents (Elt Ideal)) (b bias : (⟨S64, .f32⟩ : BufTy).Contents (Elt Ideal)) :
    (⟨S50000x64, .f32⟩ : BufTy).Contents (Elt Ideal) :=
  Epilogue.result (Linear.layer nf W (shapeCast S1x64 b shapeCasts_S64_S1x64))
    (Host.aggregate (F := Ideal) (Linear.layer nf W (shapeCast S1x64 b shapeCasts_S64_S1x64)) e)
    (shapeCast S50000x1 (Host.degree (F := Ideal) e) shapeCasts_S50000_S50000x1)
    (shapeCast S1x64 bias shapeCasts_S64_S1x64)

end Cert.KernelIdeal.Whole

end
-- ==== Proof.KernelValue.lean ====
/-
  The idealized kernel's result as ONE function of its five argument arrays.

  The program's result is the second region's output array, the epilogue of four arrays: the linear layer's output x
  (the first region's array), the aggregate of x over the edge list, the degree column, and the second bias row.
  The first of these is the linear layer of the node features, the weights and the first bias row as launched; the
  aggregate and the degree are the host's chain applied to x and to the edge list as launched. Substituting, the
  result is the function `program` below of the launch contents of the arguments.
-/
import proofs.«100327_j50818053046787_2_alg».proof.Proof.KernelRun
import proofs.«100327_j50818053046787_2_alg».proof.Proof.Program

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- What the first region leaves in its output array: the linear layer of the launch contents. -/
theorem linear_array (c : Dev nD) :
    W2 m ρ c (Proc.devRef .tc main_v1)
      = Linear.layer (m ((c : Thread nD τ).loc main_arg0)) (m ((c : Thread nD τ).loc main_arg2))
          (shapeCast S1x64 (m ((c : Thread nD τ).loc main_arg3)) shapeCasts_S64_S1x64) := by
  rw [Host.exit0_v1, Linear.array_eq, Host.entry0_arg0, Host.entry0_arg2, Host.entry0_v0]

/-- What the second region leaves in the program's result: the layer of the launch contents. -/
theorem result_array (c : Dev nD) :
    W4 m ρ c (Proc.devRef .tc main_v24)
      = program (m ((c : Thread nD τ).loc main_arg0)) (m ((c : Thread nD τ).loc main_arg1))
          (m ((c : Thread nD τ).loc main_arg2)) (m ((c : Thread nD τ).loc main_arg3)) (m ((c : Thread nD τ).loc main_arg4)) := by
  refine (W4_arr m ρ c 4).trans ?_
  rw [Epilogue.array_eq, Host.entry1_v1, Host.entry1_v15, Host.entry1_v22, Host.entry1_v23, linear_array,
    Host.exit0_arg1, Host.exit0_arg4]
  rfl

/-- The run: every weakly fair execution terminates, nothing faulting, with the result at the layer of the launch
    contents of the arguments and the arguments as launched. -/
theorem run : θ_run defs (onTc (τ := τ) (main (F := Ideal))) ⟨m, fun _ => 0, ρ⟩ (fun r => ∀ c : Dev nD,
      r.2.mem ((c.tc : Thread nD τ).loc main_v24)
        = program (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_array m ρ c), (h c).2⟩) (Out.run_out m ρ)

end Cert.KernelIdeal.Whole

end
-- ==== Proof.Bridge.lean ====
/-
  The reference computes the same function.

  Read one operation at a time, the reference's result at (p, c) is

      max ((x' (p, c) + aggregate' (p, c) / degree' (p)) + bias (c)) 0 ,

  where x' is the host's product of the features with the transposed weights plus the broadcast first bias, and
  aggregate' and degree' are the same gather and scatter-add chain the kernel's program runs between its regions,
  applied to x' and to the edge list. The host's product at (p, c) is ∑ k, features (p, k) · weightsᵀ (k, c), the sum
  the kernel's product with both second axes contracted gives; so x' is the kernel's x, the chains agree on it, and
  the two results are the same expression index by index. No law of the extended reals is used beyond that.
-/
import proofs.«100327_j50818053046787_2_alg».proof.Proof.Program
import proofs.«100327_j50818053046787_2_alg».proof.Proof.LibColumns
import proofs.«100327_j50818053046787_2_alg».proof.Proof.Gen.ReferenceIdeal.Read
import Idealize.ShloMosaic.Lib.ValueLayout

set_option maxRecDepth 16384

noncomputable section

namespace Cert.Bridge

open Idealize.ShloMosaic Idealize.ShloMosaic.ValueIdx
open Cert.ReferenceIdeal Cert.ReferenceIdeal.Gen Cert.ReferenceIdeal.Read

/-- The reference's linear layer is the kernel's: the product with the transposed weights is the sum over k of
    features (p, k) · weights (c, k), and the bias broadcast twice is the bias row at c. -/
theorem linear_eq (x0 : (⟨S50000x64, .f32⟩ : BufTy).Contents (Elt Ideal)) (x2 : (⟨S64x64, .f32⟩ : BufTy).Contents (Elt Ideal))
    (x3 : (⟨S64, .f32⟩ : BufTy).Contents (Elt Ideal)) :
    val_main_v4 (F := Ideal) x0 x2 x3
      = Cert.KernelIdeal.Linear.layer x0 x2 (shapeCast Cert.KernelIdeal.S1x64 x3 Cert.KernelIdeal.Facts₀.shapeCasts_S64_S1x64) := by
  funext i
  obtain ⟨p, c, rfl⟩ : ∃ (p : Fin 50000) (c : Fin 64), i = ix2 p c := ⟨i 0, i 1, eq_ix2 i⟩
  rw [val_main_v4_apply, val_main_v1_apply, val_main_v3_apply, val_main_v2_apply]
  have el : ∀ k : Fin 64, x0 (lidx_main_v1 (ix2 p c) k) = x0 (ix2 p k) := fun k =>
    congrArg x0 (funext fun a => Fin.ext (by match a with | ⟨0, _⟩ => rfl | ⟨1, _⟩ => rfl))
  have er : ∀ k : Fin 64, val_main_v0 (F := Ideal) x2 (ridx_main_v1 (ix2 p c) k) = x2 (ix2 c k) := fun k => by
    rw [val_main_v0_apply]
    exact congrArg x2 (funext fun a => Fin.ext (by match a with | ⟨0, _⟩ => rfl | ⟨1, _⟩ => rfl))
  have eb : x3 (idx_main_v2 (idx_main_v3 (ix2 p c)))
      = shapeCast Cert.KernelIdeal.S1x64 x3 Cert.KernelIdeal.Facts₀.shapeCasts_S64_S1x64 (ix2 (0 : Fin 1) c) := by
    rw [shapeCast_a_1a_apply]
    exact congrArg x3 (funext fun a => Fin.ext (by match a with | ⟨0, _⟩ => rfl))
  rw [eb, Finset.sum_congr rfl fun k _ => by rw [el k, er k]]
  rfl

/-- The reference's aggregate is the kernel's chain applied to the reference's linear layer. -/
theorem aggregate_eq (x0 : (⟨S50000x64, .f32⟩ : BufTy).Contents (Elt Ideal)) (x1 : (⟨S800000x2, .i32⟩ : BufTy).Contents (Elt Ideal))
    (x2 : (⟨S64x64, .f32⟩ : BufTy).Contents (Elt Ideal)) (x3 : (⟨S64, .f32⟩ : BufTy).Contents (Elt Ideal)) :
    val_main_v18 (F := Ideal) x0 x1 x2 x3 = Cert.KernelIdeal.Host.aggregate (F := Ideal) (val_main_v4 (F := Ideal) x0 x2 x3) x1 := by
  generalize hx : val_main_v4 (F := Ideal) x0 x2 x3 = x
  unfold val_main_v18 val_main_v15
  rw [hx]
  rfl

/-- The reference's degree is the kernel's. -/
theorem degree_eq (x1 : (⟨S800000x2, .i32⟩ : BufTy).Contents (Elt Ideal)) :
    val_main_v24 (F := Ideal) x1 = Cert.KernelIdeal.Host.degree (F := Ideal) x1 := rfl

/-- The reference's result is the layer of its arguments. -/
theorem reference_eq (x0 : (⟨S50000x64, .f32⟩ : BufTy).Contents (Elt Ideal)) (x1 : (⟨S800000x2, .i32⟩ : BufTy).Contents (Elt Ideal))
    (x2 : (⟨S64x64, .f32⟩ : BufTy).Contents (Elt Ideal)) (x3 x4 : (⟨S64, .f32⟩ : BufTy).Contents (Elt Ideal)) :
    val_main_v32 (F := Ideal) x0 x1 x2 x3 x4 = Cert.KernelIdeal.Whole.program x0 x1 x2 x3 x4 := by
  funext i
  obtain ⟨p, c, rfl⟩ : ∃ (p : Fin 50000) (c : Fin 64), i = ix2 p c := ⟨i 0, i 1, eq_ix2 i⟩
  rw [val_main_v32_apply, val_main_v31_apply, val_main_v28_apply, val_main_v27_apply, val_main_v26_apply,
    val_main_v25_apply, val_main_v30_apply, val_main_v29_apply, val_main_call0_v0_apply, val_main_call0_cst_apply,
    aggregate_eq, degree_eq, linear_eq]
  have ed : Cert.KernelIdeal.Host.degree (F := Ideal) x1 (idx_main_v25 (idx_main_v26 (ix2 p c)))
      = shapeCast Cert.KernelIdeal.S50000x1 (Cert.KernelIdeal.Host.degree (F := Ideal) x1)
          Cert.KernelIdeal.Facts₀.shapeCasts_S50000_S50000x1 (ix2 p (0 : Fin 1)) := by
    rw [Cert.Lib.Columns.shapeCast_a_a1_apply]
    exact congrArg _ (funext fun a => Fin.ext (by match a with | ⟨0, _⟩ => rfl))
  have eb : x4 (idx_main_v29 (idx_main_v30 (ix2 p c)))
      = shapeCast Cert.KernelIdeal.S1x64 x4 Cert.KernelIdeal.Facts₀.shapeCasts_S64_S1x64 (ix2 (0 : Fin 1) c) := by
    rw [shapeCast_a_1a_apply]
    exact congrArg x4 (funext fun a => Fin.ext (by match a with | ⟨0, _⟩ => rfl))
  rw [ed, eb]
  rfl

end Cert.Bridge

end
-- ==== Proof.lean ====
/-
  A graph-convolution layer — a linear layer, a gather and scatter-add over an edge list, a division by the degree, a
  bias and a rectifier — computed by two grid kernels with host operations between them, against the same layer
  written as host operations only.

  On the extended reals both programs end with

      result (p, c) = max ((x (p, c) + aggregate (p, c) / degree (p)) + bias (c)) 0 ,
      x (p, c)      = (∑ k, features (p, k) · weights (c, k)) + bias₁ (c) ,

  where the aggregate adds row source(e) of x into row target(e) for every edge e and the degree counts the edges into
  each node, bounded below by one. The kernel's first region stores x block by block (a product into a zero
  accumulator with both operands' second axes contracted, the roundings into it the identity here); the host gathers
  and scatter-adds; the second region stores the result block by block, reading the degree column along the rows and
  the bias row along the columns. The reference computes x by a product with the transposed weights and runs the same
  gather and scatter-add chain; index by index its result is the same expression, so no property of the inputs and no
  law of the extended reals beyond that is needed. The frames of the three programs are the generated ones (the
  reference's is its run with the result dropped); the idealization rewrote nothing.
-/
import proofs.«100327_j50818053046787_2_alg».proof.Defs
import proofs.«100327_j50818053046787_2_alg».proof.Proof.Gen.Kernel
import proofs.«100327_j50818053046787_2_alg».proof.Proof.Gen.Kernel.Skeleton
import proofs.«100327_j50818053046787_2_alg».proof.Proof.Gen.Kernel.Launch
import proofs.«100327_j50818053046787_2_alg».proof.Proof.Gen.Kernel.Points
import proofs.«100327_j50818053046787_2_alg».proof.Proof.Gen.Kernel.Frame
import proofs.«100327_j50818053046787_2_alg».proof.Proof.Gen.KernelIdeal
import proofs.«100327_j50818053046787_2_alg».proof.Proof.Gen.KernelIdeal.Skeleton
import proofs.«100327_j50818053046787_2_alg».proof.Proof.Gen.KernelIdeal.Launch
import proofs.«100327_j50818053046787_2_alg».proof.Proof.Gen.KernelIdeal.Points
import proofs.«100327_j50818053046787_2_alg».proof.Proof.Gen.KernelIdeal.Frame
import proofs.«100327_j50818053046787_2_alg».proof.Proof.Gen.ReferenceIdeal
import proofs.«100327_j50818053046787_2_alg».proof.Proof.Gen.Pre_finite_inputs
import proofs.«100327_j50818053046787_2_alg».proof.Proof.Gen.ReferenceIdeal.Read
import proofs.«100327_j50818053046787_2_alg».proof.Proof.KernelValue
import proofs.«100327_j50818053046787_2_alg».proof.Proof.Bridge
import Idealize.ShloMosaic.Adequacy
import Idealize.ShloMosaic.Init

noncomputable section

namespace Cert.Proof

open Idealize.ShloMosaic Idealize.SL.Sem

/-- The kernel as printed runs, and its arguments end as launched. -/
theorem frame_kernel : Cert.frame_Kernel := fun m ρ _ => Cert.Kernel.Gen.frame m ρ

/-- The idealized kernel runs, and its arguments end as launched. -/
theorem frame_ideal : Cert.frame_KernelIdeal := fun m ρ _ => Cert.KernelIdeal.Gen.frame m ρ

/-- The idealized reference runs, and its arguments end as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the layer of those arguments. -/
theorem algebraic : Cert.algebraic_KernelIdeal_ReferenceIdeal := by
  intro m ρ m' ρ' _ hagree
  refine ⟨fun c => Cert.KernelIdeal.Whole.program
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq _ _ _ _ _).trans ?_
  rw [(hagree c).1, (hagree c).2.1, (hagree c).2.2.1, (hagree c).2.2.2.1, (hagree c).2.2.2.2]
  exact Cert.Bridge.reference_eq _ _ _ _ _

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
